-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S160000x256 : Shape := ⟨2, ![160000, 256]⟩
abbrev S160000 : Shape := ⟨1, ![160000]⟩
abbrev S768x256 : Shape := ⟨2, ![768, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x256 : S_.BroadcastsInDim S160000x256 (![] : Fin 0 → Fin S160000x256.rank)
  reducesTo_S160000x256_S_d0_1 : S160000x256.ReducesTo [0, 1] S_
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S10000x256 .f32) (main_arg1 : FVec F S160000x256 .f32) (main_arg2 : IVec S160000 32) (main_arg3 : IVec S160000 32) (main_arg4 : FVec F S768x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x256 .f32 := Host.absf main_arg1
  let main_cst_0 : FVec F S_ .f32 := constant S_ .f32 0x7F800000#32
  let main_v5 : FVec F S160000x256 .f32 := broadcastInDim S160000x256 ![] bcast_S_S160000x256 main_cst_0
  let main_v6 : IVec S160000x256 1 := cmpf .olt main_v4 main_v5
  let main_c_1 : IVec S_ 1 := constantI S_ 1 1#1
  let main_v7 : IVec S_ 1 := (fun x v => Host.reduce IntOp.andi x v reducesTo_S160000x256_S_d0_1 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Kernel.lean ====
abbrev S10000x256 : Shape := ⟨2, ![10000, 256]⟩
abbrev S160000x256 : Shape := ⟨2, ![160000, 256]⟩
abbrev S160000 : Shape := ⟨1, ![160000]⟩
abbrev S768x256 : Shape := ⟨2, ![768, 256]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S256x256 : Shape := ⟨2, ![256, 256]⟩
abbrev S2000x256 : Shape := ⟨2, ![2000, 256]⟩

abbrev nBuf : Space → Nat
  | .hbm => 55
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S160000x256, .f32⟩
  | .hbm, ⟨2, _⟩ => ⟨S160000, .i32⟩
  | .hbm, ⟨3, _⟩ => ⟨S160000, .i32⟩
  | .hbm, ⟨4, _⟩ => ⟨S768x256, .f32⟩
  | .hbm, ⟨5, _⟩ => ⟨S_, .i32⟩
  | .hbm, ⟨6, _⟩ => ⟨S160000, .i32⟩
  | .hbm, ⟨7, _⟩ => ⟨S160000, .i1⟩
  | .hbm, ⟨8, _⟩ => ⟨S_, .i32⟩
  | .hbm, ⟨9, _⟩ => ⟨S160000, .i32⟩
  | .hbm, ⟨10, _⟩ => ⟨S160000, .i32⟩
  | .hbm, ⟨11, _⟩ => ⟨S160000, .i32⟩
  | .hbm, ⟨12, _⟩ => ⟨S160000x1, .i32⟩
  | .hbm, ⟨13, _⟩ => ⟨S1, .i32⟩
  | .hbm, ⟨14, _⟩ => ⟨S_, .i32⟩
  | .hbm, ⟨15, _⟩ => ⟨S160000x1, .i32⟩
  | .hbm, ⟨16, _⟩ => ⟨S160000x1, .i1⟩
  | .hbm, ⟨17, _⟩ => ⟨S1x1, .i32⟩
  | .hbm, ⟨18, _⟩ => ⟨S160000x1, .i32⟩
  | .hbm, ⟨19, _⟩ => ⟨S160000x1, .i1⟩
  | .hbm, ⟨20, _⟩ => ⟨S160000x1, .i1⟩
  | .hbm, ⟨21, _⟩ => ⟨S_, .i1⟩
  | .hbm, ⟨22, _⟩ => ⟨S160000, .i1⟩
  | .hbm, ⟨23, _⟩ => ⟨S160000x256, .f32⟩
  | .hbm, ⟨24, _⟩ => ⟨S160000x256, .i1⟩
  | .hbm, ⟨25, _⟩ => ⟨S_, .f32⟩
  | .hbm, ⟨26, _⟩ => ⟨S160000x256, .f32⟩
  | .hbm, ⟨27, _⟩ => ⟨S160000x256, .f32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S1, .i32⟩
  | .hbm, ⟨37, _⟩ => ⟨S_, .i32⟩
  | .hbm, ⟨38, _⟩ => ⟨S160000x1, .i32⟩
  | .hbm, ⟨39, _⟩ => ⟨S160000x1, .i1⟩
  | .hbm, ⟨40, _⟩ => ⟨S1x1, .i32⟩
  | .hbm, ⟨41, _⟩ => ⟨S160000x1, .i32⟩
  | .hbm, ⟨42, _⟩ => ⟨S160000x1, .i1⟩
  | .hbm, ⟨43, _⟩ => ⟨S160000x1, .i1⟩
  | .hbm, ⟨44, _⟩ => ⟨S_, .i1⟩
  | .hbm, ⟨45, _⟩ => ⟨S160000, .i1⟩
  | .hbm, ⟨46, _⟩ => ⟨S160000x256, .f32⟩
  | .hbm, ⟨47, _⟩ => ⟨S160000x256, .i1⟩
  | .hbm, ⟨48, _⟩ => ⟨S_, .f32⟩
  | .hbm, ⟨49, _⟩ => ⟨S160000x256, .f32⟩
  | .hbm, ⟨50, _⟩ => ⟨S160000x256, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S160000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x256_0 : S160000.BroadcastsInDim S160000x256 (![0] : Fin 1 → Fin S160000x256.rank)
  bcast_S_S160000x256 : S_.BroadcastsInDim S160000x256 (![] : Fin 0 → Fin S160000x256.rank)
  slices_S768x256_S256x256_0_0 : S768x256.Slices ![0, 0] S256x256
  slices_S768x256_S256x256_256_0 : S768x256.Slices ![256, 0] S256x256
  slices_S768x256_S256x256_512_0 : S768x256.Slices ![512, 0] S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S10000x256_S160000x1_S160000x256_1_0_n_n_0_1_1256_wf : GatherDims.WF S10000x256 S160000x1 S160000x256 [1] [0] [] [0] [] 1 ![1, 256]
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S160000x256.size a
  hwx0_0 : ∀ i : grid0.Coords, EltTy.bits .f32 = 32 ∨ (Rect.block (s := S160000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S160000x256.size a
  hwx0_1 : ∀ i : grid0.Coords, EltTy.bits .f32 = 32 ∨ (Rect.block (s := S160000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S160000x256.size a
  hwx0_2 : ∀ i : grid0.Coords, EltTy.bits .f32 = 32 ∨ (Rect.block (s := S160000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S160000x256.size a
  hwx0_6 : ∀ i : grid0.Coords, EltTy.bits .f32 = 32 ∨ (Rect.block (s := S160000x256) S2000x256.size (cc0_transform_6 i) (hinb0_6 i)).WholeWords (EltTy.packing .f32)

variable [Facts₀]

def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S160000x256 : Shape := ⟨2, ![160000, 256]⟩
abbrev S160000 : Shape := ⟨1, ![160000]⟩
abbrev S768x256 : Shape := ⟨2, ![768, 256]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x768 : Shape := ⟨2, ![160000, 768]⟩

abbrev nBuf : Space → Nat
  | .hbm => 53
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S160000x256, .f32⟩
  | .hbm, ⟨2, _⟩ => ⟨S160000, .i32⟩
  | .hbm, ⟨3, _⟩ => ⟨S160000, .i32⟩
  | .hbm, ⟨4, _⟩ => ⟨S768x256, .f32⟩
  | .hbm, ⟨5, _⟩ => ⟨S_, .i32⟩
  | .hbm, ⟨6, _⟩ => ⟨S160000, .i32⟩
  | .hbm, ⟨7, _⟩ => ⟨S160000, .i1⟩
  | .hbm, ⟨8, _⟩ => ⟨S_, .i32⟩
  | .hbm, ⟨9, _⟩ => ⟨S160000, .i32⟩
  | .hbm, ⟨10, _⟩ => ⟨S160000, .i32⟩
  | .hbm, ⟨11, _⟩ => ⟨S160000, .i32⟩
  | .hbm, ⟨12, _⟩ => ⟨S160000x1, .i32⟩
  | .hbm, ⟨13, _⟩ => ⟨S1, .i32⟩
  | .hbm, ⟨14, _⟩ => ⟨S_, .i32⟩
  | .hbm, ⟨15, _⟩ => ⟨S160000x1, .i32⟩
  | .hbm, ⟨16, _⟩ => ⟨S160000x1, .i1⟩
  | .hbm, ⟨17, _⟩ => ⟨S1x1, .i32⟩
  | .hbm, ⟨18, _⟩ => ⟨S160000x1, .i32⟩
  | .hbm, ⟨19, _⟩ => ⟨S160000x1, .i1⟩
  | .hbm, ⟨20, _⟩ => ⟨S160000x1, .i1⟩
  | .hbm, ⟨21, _⟩ => ⟨S_, .i1⟩
  | .hbm, ⟨22, _⟩ => ⟨S160000, .i1⟩
  | .hbm, ⟨23, _⟩ => ⟨S160000x256, .f32⟩
  | .hbm, ⟨24, _⟩ => ⟨S160000x256, .i1⟩
  | .hbm, ⟨25, _⟩ => ⟨S_, .f32⟩
  | .hbm, ⟨26, _⟩ => ⟨S160000x256, .f32⟩
  | .hbm, ⟨27, _⟩ => ⟨S160000x256, .f32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S1, .i32⟩
  | .hbm, ⟨37, _⟩ => ⟨S_, .i32⟩
  | .hbm, ⟨38, _⟩ => ⟨S160000x1, .i32⟩
  | .hbm, ⟨39, _⟩ => ⟨S160000x1, .i1⟩
  | .hbm, ⟨40, _⟩ => ⟨S1x1, .i32⟩
  | .hbm, ⟨41, _⟩ => ⟨S160000x1, .i32⟩
  | .hbm, ⟨42, _⟩ => ⟨S160000x1, .i1⟩
  | .hbm, ⟨43, _⟩ => ⟨S160000x1, .i1⟩
  | .hbm, ⟨44, _⟩ => ⟨S_, .i1⟩
  | .hbm, ⟨45, _⟩ => ⟨S160000, .i1⟩
  | .hbm, ⟨46, _⟩ => ⟨S160000x256, .f32⟩
  | .hbm, ⟨47, _⟩ => ⟨S160000x256, .i1⟩
  | .hbm, ⟨48, _⟩ => ⟨S_, .f32⟩
  | .hbm, ⟨49, _⟩ => ⟨S160000x256, .f32⟩
  | .hbm, ⟨50, _⟩ => ⟨S160000x256, .f32⟩
  | .hbm, ⟨51, _⟩ => ⟨S160000x768, .f32⟩
  | .hbm, ⟨52, _⟩ => ⟨S160000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x256_0 : S160000.BroadcastsInDim S160000x256 (![0] : Fin 1 → Fin S160000x256.rank)
  bcast_S_S160000x256 : S_.BroadcastsInDim S160000x256 (![] : Fin 0 → Fin S160000x256.rank)
  concatenates_S160000x256_S160000x256_S160000x256_S160000x768_d1 : Shape.Concatenates [S160000x256, S160000x256, S160000x256] S160000x768 1
  gather_S10000x256_S160000x1_S160000x256_1_0_n_n_0_1_1256_wf : GatherDims.WF S10000x256 S160000x1 S160000x256 [1] [0] [] [0] [] 1 ![1, 256]
  dot_S160000x768_S768x256_S160000x256_1_0_0_1_n_n_wf : DotDims.WF S160000x768 S768x256 S160000x256 [1] [0] [0] [1] [] []

variable [Facts₀]

def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x768_S768x256_S160000x256_1_0_0_1_n_n : DotDims S160000x768 S768x256 S160000x256 where
  lhsContracting := [1]
  rhsContracting := [0]
  lhsNonContracting := [0]
  rhsNonContracting := [1]
  lhsBatch := []
  rhsBatch := []
  wf := dot_S160000x768_S768x256_S160000x256_1_0_0_1_n_n_wf

class Facts : Prop extends Facts₀ where

variable [Facts]
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.BodyEntry.lean ====
/-
  What one grid step of the kernel computes, read at an entry.

  A step loads a 2000-row tile of the edge features, of the gathered receiver features and of the gathered sender
  features, and the three 256 × 256 bands of the weight matrix; it rounds all six to bf16, multiplies each tile by
  its band into a zero accumulator and adds the three products. At exact arithmetic rounding is the identity, so
  entry (p, q) of the stored tile is
      (Σₖ e (p, k) · we (k, q)  +  Σₖ r (p, k) · wr (k, q))  +  Σₖ s (p, k) · ws (k, q).
-/
import proofs.«100382_j29119878266986_1_alg».proof.Proof.Gen.KernelIdeal.Skeleton
import proofs.«100382_j29119878266986_1_alg».proof.Proof.LibDotEntry
import proofs.«100382_j29119878266986_1_alg».proof.Proof.LibMatDims
import Idealize.ShloMosaic.Lib.ValueIdx
import Idealize.ShloMosaic.Lib.Pipeline.Value

noncomputable section

namespace Cert.KernelIdeal.Bridge

open Idealize.ShloMosaic Idealize.ShloMosaic.TcCoe Idealize.SL.Sem Idealize.ShloMosaic.ValueIdx
open Cert.KernelIdeal Cert.KernelIdeal.Gen Cert.Lib

variable [Cert.KernelIdeal.Facts]

/-- A tile times a band into a zero accumulator, at entry (p, q): the row of the tile against the column of the band. -/
theorem tile_band (x : FVec Ideal S2000x256 .bf16) (w : FVec Ideal S256x256 .bf16) (p : Fin 2000) (q : Fin 256) :
    matmul dot_S2000x256_S256x256_S2000x256_1_0_0_1_n_n none x w (constant (F := Ideal) S2000x256 .f32 0x00000000#32) (ix2 p q)
      = ∑ k : Fin 256, x (ix2 p k) * w (ix2 k q) :=
  DotEntry.matmul_zero_ix2 dot_S2000x256_S256x256_S2000x256_1_0_0_1_n_n
    (MatDims.contr_rank _ rfl) (MatDims.contr_size _ rfl)
    (MatDims.lhs_row _ rfl rfl) (MatDims.lhs_col _ rfl) (MatDims.rhs_row _ rfl rfl) (MatDims.rhs_col _ rfl rfl rfl rfl)
    x w p q

/-- The stored tile at entry (p, q): the three row-by-column sums added in the order the step adds them. -/
theorem stored_entry (e r s : Vec Ideal S2000x256 .f32) (we wr ws : Vec Ideal S256x256 .f32) (p : Fin 2000) (q : Fin 256) :
    k0_pay1 (F := Ideal) e r s we wr ws (ix2 p q)
      = (∑ k : Fin 256, e (ix2 p k) * we (ix2 k q) + ∑ k : Fin 256, r (ix2 p k) * wr (ix2 k q))
        + ∑ k : Fin 256, s (ix2 p k) * ws (ix2 k q) := by
  unfold k0_pay1
  simp only [shapeCast_self]
  rw [addf_apply, addf_apply, tile_band, tile_band, tile_band]
  rfl

end Cert.KernelIdeal.Bridge

end
-- ==== Proof.TakeRows.lean ====
/-
  Rows of a table picked by a list of row numbers, as ONE function of the table and the numbers.

  Both programs pick rows of the node table twice (by the receivers and by the senders) with the same
  twenty-three steps: a negative number is counted from the end (10000 is added to it), the number is laid out as a
  one-column matrix, the row it names is gathered, and a row whose number is still outside 0 … 9999 is
  replaced by the pattern 0x7FC00000 in every column. The certificate never looks inside these steps: it only
  needs that the two programs apply the SAME function to the same table and numbers, so the function is
  named here once.
-/
import proofs.«100382_j29119878266986_1_alg».proof.KernelIdeal

noncomputable section

namespace Cert.KernelIdeal.Bridge

open Idealize.ShloMosaic Idealize.SL.Sem Cert.KernelIdeal
open Cert.KernelIdeal.Facts₀ Cert.KernelIdeal.Facts

variable {F : FTy → Type} [FloatOps F] [Cert.KernelIdeal.Facts]

/-- A row number counted from the end when negative. -/
def wrapRows (rows : (⟨S160000, .i32⟩ : BufTy).Contents (Elt F)) : (⟨S160000, .i32⟩ : BufTy).Contents (Elt F) :=
  select (cmpi .slt rows (broadcastInDim S160000 ![] bcast_S_S160000 (constantI S_ 32 0#32)))
    (addi rows (broadcastInDim S160000 ![] bcast_S_S160000 (constantI S_ 32 10000#32))) rows

/-- The row numbers as a one-column matrix. -/
def rowColumn (rows : (⟨S160000, .i32⟩ : BufTy).Contents (Elt F)) : (⟨S160000x1, .i32⟩ : BufTy).Contents (Elt F) :=
  broadcastInDim S160000x1 ![0] bcast_S160000_S160000x1_0 (wrapRows (F := F) rows)

/-- Which row numbers lie in 0 … 9999. -/
def rowInRange (rows : (⟨S160000, .i32⟩ : BufTy).Contents (Elt F)) : (⟨S160000, .i1⟩ : BufTy).Contents (Elt F) :=
  Host.reduce IntOp.andi
    (andi (cmpi .sge (rowColumn (F := F) rows) (broadcastInDim S160000x1 ![] bcast_S_S160000x1 (constantI S_ 32 0#32)))
      (cmpi .sle (rowColumn (F := F) rows)
        (broadcastInDim S160000x1 ![0, 1] bcast_S1x1_S160000x1_0_1 (broadcastInDim S1x1 ![1] bcast_S1_S1x1_1 (constantI S1 32 9999#32)))))
    (constantI S_ 1 1#1) reducesTo_S160000x1_S160000_d1 h_S_

/-- The picked rows: row p of the result is the table's row number p names, or the fill pattern when that
    number is out of range. -/
def takeRows (table : (⟨S10000x256, .f32⟩ : BufTy).Contents (Elt F)) (rows : (⟨S160000, .i32⟩ : BufTy).Contents (Elt F)) :
    (⟨S160000x256, .f32⟩ : BufTy).Contents (Elt F) :=
  select (broadcastInDim S160000x256 ![0] bcast_S160000_S160000x256_0 (rowInRange (F := F) rows))
    (Host.gather gather_S10000x256_S160000x1_S160000x256_1_0_n_n_0_1_1256 table (rowColumn (F := F) rows))
    (broadcastInDim S160000x256 ![] bcast_S_S160000x256 (constant S_ .f32 0x7FC00000#32))

end Cert.KernelIdeal.Bridge

end
-- ==== Proof.LibBufCasts.lean ====
/-
  Contents of a typed buffer reference, moved to the buffer's own type and back.

  A function called from @main states its operations at the types of the tensor values; each operand is moved from its
  buffer's type to the value's type, and each result back, along the equation "the buffer's type is the value's type".
  Whatever that equation's proof, the two moves cancel: reading a called function's line of operations leaves them
  stacked in pairs around every intermediate value, and these two equations remove the pairs without unfolding anything.
-/
import Idealize.ShloMosaic.Lib.StableHlo

namespace Cert.Lib.BufCasts

open Idealize.ShloMosaic Idealize.ShloMosaic.StableHlo

variable {sig : RefSig} {Val : EltTy → Type} {T : BufTy}

/-- Contents moved to the buffer's own type and back to the value's type are unchanged. -/
theorem ofBuf_toBuf (x : TRef sig T) (v : T.Contents Val) : x.ofBuf (x.toBuf v) = v := by
  obtain ⟨r, h, h1, h2⟩ := x
  subst h
  rfl

/-- Contents moved to the value's type and back to the buffer's own type are unchanged. -/
theorem toBuf_ofBuf (x : TRef sig T) (v : x.ref.ty.Contents Val) : x.toBuf (x.ofBuf v) = v := by
  obtain ⟨r, h, h1, h2⟩ := x
  subst h
  rfl

end Cert.Lib.BufCasts
-- ==== Proof.KernelHost.lean ====
/-
  What the kernel's program has computed on the host when its one region is entered.

  Before the region the program picks the receivers' and the senders' rows of the node table and cuts the
  weight matrix into its three bands of 256 rows. Read here: the two picks are `takeRows` of the node table and
  the receivers (senders), and band t is the slice of the weight matrix starting at row 256·t.
-/
import proofs.«100382_j29119878266986_1_alg».proof.Proof.Gen.KernelIdeal.Frame
import proofs.«100382_j29119878266986_1_alg».proof.Proof.TakeRows
import proofs.«100382_j29119878266986_1_alg».proof.Proof.LibBufCasts
import Idealize.ShloMosaic.Lib.StableHlo.Run

noncomputable section

namespace Cert.KernelIdeal.Bridge

open Idealize.ShloMosaic Idealize.ShloMosaic.TcCoe Idealize.SL.Sem Idealize.ShloMosaic.StableHlo
open Cert.KernelIdeal Cert.KernelIdeal.Gen Cert.Lib

variable {F : FTy → Type} [FloatOps F]
variable (m : (ℓ : Loc nD τ sig) → Buf (Elt F) ℓ)

/-- The first band of the weight matrix: rows 0 … 255. -/
theorem V_band0 (c : Dev nD) : (V m c main_v2 : S256x256.Idx → Elt F .f32)
    = extractStridedSlice S256x256 ![0, 0] (m ((c : Thread nD τ).loc main_arg4) : S768x256.Idx → Elt F .f32) Facts₀.slices_S768x256_S256x256_0_0 := by
  dsimp only [Gen.V]
  simp only [hostOps0, hostOps0_1, hostOps0_2, List.flatten_cons, List.flatten_nil, List.append_nil, List.cons_append, List.nil_append]
  after_results_simp

/-- The second band: rows 256 … 511. -/
theorem V_band1 (c : Dev nD) : (V m c main_v3 : S256x256.Idx → Elt F .f32)
    = extractStridedSlice S256x256 ![256, 0] (m ((c : Thread nD τ).loc main_arg4) : S768x256.Idx → Elt F .f32) Facts₀.slices_S768x256_S256x256_256_0 := by
  dsimp only [Gen.V]
  simp only [hostOps0, hostOps0_1, hostOps0_2, List.flatten_cons, List.flatten_nil, List.append_nil, List.cons_append, List.nil_append]
  after_results_simp

/-- The third band: rows 512 … 767. -/
theorem V_band2 (c : Dev nD) : (V m c main_v4 : S256x256.Idx → Elt F .f32)
    = extractStridedSlice S256x256 ![512, 0] (m ((c : Thread nD τ).loc main_arg4) : S768x256.Idx → Elt F .f32) Facts₀.slices_S768x256_S256x256_512_0 := by
  dsimp only [Gen.V]
  simp only [hostOps0, hostOps0_1, hostOps0_2, List.flatten_cons, List.flatten_nil, List.append_nil, List.cons_append, List.nil_append]
  after_results_simp

-- the gather and the reduction are kept folded: the comparison never needs to look inside them
attribute [local irreducible] Host.reduce Host.gather in
/-- The receivers' rows of the node table. -/
theorem V_recv (c : Dev nD) : (V m c main_v0 : S160000x256.Idx → Elt F .f32)
    = takeRows (m ((c : Thread nD τ).loc main_arg0)) (m ((c : Thread nD τ).loc main_arg2)) := by
  dsimp only [Gen.V]
  simp only [hostOps0, hostOps0_1, hostOps0_2, List.flatten_cons, List.flatten_nil, List.append_nil, List.cons_append, List.nil_append]
  after_results_simp
  simp only [BufCasts.ofBuf_toBuf]
  first | rfl | fail "receivers: the composed term is not takeRows by unfolding"

attribute [local irreducible] Host.reduce Host.gather in
/-- The senders' rows of the node table. -/
theorem V_send (c : Dev nD) : (V m c main_v1 : S160000x256.Idx → Elt F .f32)
    = takeRows (m ((c : Thread nD τ).loc main_arg0)) (m ((c : Thread nD τ).loc main_arg3)) := by
  dsimp only [Gen.V]
  simp only [hostOps0, hostOps0_1, hostOps0_2, List.flatten_cons, List.flatten_nil, List.append_nil, List.cons_append, List.nil_append]
  after_results_simp
  simp only [BufCasts.ofBuf_toBuf]
  first | rfl | fail "senders: the composed term is not takeRows by unfolding"

end Cert.KernelIdeal.Bridge

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.LibConcatProduct.lean ====
/-
  A matrix product whose left factor is three matrices laid side by side.

  Let E, R and S be n × a matrices, C their concatenation along the column axis (n × c with c = 3a) and W a c × b
  matrix. Entry (p, q) of C · W is the sum over the c columns k of C (p, k) · W (k, q). Cutting the columns into the
  three consecutive runs of length a, that sum is
      Σₖ E (p, k) · W (k, q)  +  Σₖ R (p, k) · W (a + k, q)  +  Σₖ S (p, k) · W (2a + k, q),
  the three products of each piece with its own band of rows of W. Only re-indexing and the grouping of a finite sum
  are used — no distributive law and no cancellation — so the statement holds in any commutative additive monoid with
  a product, the extended reals among them.
-/
import Idealize.ShloMosaic.Lib.ValueIdx
import proofs.«100382_j29119878266986_1_alg».proof.Proof.LibSumBlocks

noncomputable section

namespace Cert.Lib.ConcatProduct

open Idealize.ShloMosaic Idealize.ShloMosaic.ValueIdx

variable {M : Type} [AddCommMonoid M] [Mul M] {n a b c : Nat}

/-- Entry (p, q) of E · W₀ + R · W₁ + S · W₂, where Wₜ is the band of rows t·a … t·a + a − 1 of W. -/
def threeProducts (h : a + a + a = c) (E R S : (⟨2, ![n, a]⟩ : Shape).Idx → M) (W : (⟨2, ![c, b]⟩ : Shape).Idx → M)
    (p : Fin n) (q : Fin b) : M :=
  (∑ k : Fin a, E (ix2 p k) * W (ix2 (⟨k.val, by omega⟩ : Fin c) q)
      + ∑ k : Fin a, R (ix2 p k) * W (ix2 (⟨a + k.val, by omega⟩ : Fin c) q))
    + ∑ k : Fin a, S (ix2 p k) * W (ix2 (⟨a + a + k.val, by omega⟩ : Fin c) q)

/-- The same as a whole n × b array. -/
def threeProductsArr (h : a + a + a = c) (E R S : (⟨2, ![n, a]⟩ : Shape).Idx → M) (W : (⟨2, ![c, b]⟩ : Shape).Idx → M) :
    (⟨2, ![n, b]⟩ : Shape).Idx → M :=
  fun i => threeProducts h E R S W (i 0) (i 1)

theorem threeProductsArr_ix2 (h : a + a + a = c) (E R S : (⟨2, ![n, a]⟩ : Shape).Idx → M)
    (W : (⟨2, ![c, b]⟩ : Shape).Idx → M) (p : Fin n) (q : Fin b) :
    threeProductsArr h E R S W (ix2 p q) = threeProducts h E R S W p q := rfl

/-- Row p of a matrix C that reads E on its first a columns, R on the next a and S on the last a, times column q of
    W, is the three band products added. -/
theorem sum_eq_threeProducts (h : a + a + a = c) (C : (⟨2, ![n, c]⟩ : Shape).Idx → M)
    (E R S : (⟨2, ![n, a]⟩ : Shape).Idx → M) (W : (⟨2, ![c, b]⟩ : Shape).Idx → M) (p : Fin n) (q : Fin b)
    (h0 : ∀ (j : Fin c) (k : Fin a), j.val = k.val → C (ix2 p j) = E (ix2 p k))
    (h1 : ∀ (j : Fin c) (k : Fin a), j.val = a + k.val → C (ix2 p j) = R (ix2 p k))
    (h2 : ∀ (j : Fin c) (k : Fin a), j.val = a + a + k.val → C (ix2 p j) = S (ix2 p k)) :
    ∑ j : Fin c, C (ix2 p j) * W (ix2 j q) = threeProducts h E R S W p q := by
  have h3 : 3 * a = c := by omega
  rw [LibSumBlocks.sum_fin_blocks 3 a h3 (fun j => C (ix2 p j) * W (ix2 j q)), Fin.sum_univ_three]
  unfold threeProducts
  refine congrArg₂ (· + ·) (congrArg₂ (· + ·) ?_ ?_) ?_
  · refine Finset.sum_congr rfl fun k _ => ?_
    have e : (⟨(0 : Fin 3).val * a + k.val, h3 ▸ LibSumBlocks.mul_add_lt (0 : Fin 3).isLt k.isLt⟩ : Fin c)
        = ⟨k.val, by omega⟩ := Fin.ext (by show 0 * a + k.val = k.val; omega)
    rw [e, h0 ⟨k.val, by omega⟩ k rfl]
  · refine Finset.sum_congr rfl fun k _ => ?_
    have e : (⟨(1 : Fin 3).val * a + k.val, h3 ▸ LibSumBlocks.mul_add_lt (1 : Fin 3).isLt k.isLt⟩ : Fin c)
        = ⟨a + k.val, by omega⟩ := Fin.ext (by show 1 * a + k.val = a + k.val; omega)
    rw [e, h1 ⟨a + k.val, by omega⟩ k rfl]
  · refine Finset.sum_congr rfl fun k _ => ?_
    have e : (⟨(2 : Fin 3).val * a + k.val, h3 ▸ LibSumBlocks.mul_add_lt (2 : Fin 3).isLt k.isLt⟩ : Fin c)
        = ⟨a + a + k.val, by omega⟩ := Fin.ext (by show 2 * a + k.val = a + a + k.val; omega)
    rw [e, h2 ⟨a + a + k.val, by omega⟩ k rfl]

end Cert.Lib.ConcatProduct

end
-- ==== Proof.KernelArray.lean ====
/-
  From the kernel's grid steps to its whole result array.

  Step t of the 80 reads rows 2000·t … 2000·t + 1999 of the edge features, of the receivers' rows and of the
  senders' rows, and the three bands of the weight matrix whole, and writes back rows 2000·t … 2000·t + 1999 of the
  result. So the tile a step writes is the block at those rows of ONE array: entry (p, q) of it is
      Σₖ edges (p, k) · W (k, q)  +  Σₖ recv (p, k) · W (256 + k, q)  +  Σₖ send (p, k) · W (512 + k, q),
  and since the 80 blocks cover every row, the result array ends holding exactly that array.
-/
import proofs.«100382_j29119878266986_1_alg».proof.Proof.Gen.KernelIdeal.Value
import proofs.«100382_j29119878266986_1_alg».proof.Proof.BodyEntry
import proofs.«100382_j29119878266986_1_alg».proof.Proof.KernelHost
import proofs.«100382_j29119878266986_1_alg».proof.Proof.LibConcatProduct
import Idealize.ShloMosaic.Lib.Pipeline.Value
import Idealize.ShloMosaic.Lib.ValueIdx

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Lib

variable (m : (ℓ : Loc nD τ sig) → Buf (Elt Ideal) ℓ) (ρ : Dev nD → PrngReg)

theorem zero_offsets : (![0, 0] : Fin 2 → Nat) = fun _ => 0 := funext fun a => by fin_cases a <;> rfl

/-- The array the kernel's result ends holding: the three band products of the edge features, the receivers' rows
    and the senders' rows, added. -/
def outArr (c : Dev nD) : S160000x256.Idx → EReal :=
  ConcatProduct.threeProductsArr (M := EReal) (n := 160000) (a := 256) (b := 256) (c := 768) rfl
    (m ((c : Thread nD τ).loc main_arg1))
    (takeRows (F := Ideal) (m ((c : Thread nD τ).loc main_arg0)) (m ((c : Thread nD τ).loc main_arg2)))
    (takeRows (F := Ideal) (m ((c : Thread nD τ).loc main_arg0)) (m ((c : Thread nD τ).loc main_arg3)))
    (m ((c : Thread nD τ).loc main_arg4))

/-- Where each window's block sits at step t: the three feature windows and the result's at block row t, the three
    band windows at the one block there is (decided over the 80 steps). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The edge tile at step t is rows 2000·t … of the edge features. -/
theorem edge_tile (c : Dev nD) (t : Fin cfg0.N) (r : Fin 2000) (k : Fin 256) (p : Fin 160000)
    (hp : p.val = 2000 * t.val + r.val) :
    (iblk m c 0 t : Vec Ideal S2000x256 .f32) (ix2 r k)
      = (m ((c : Thread nD τ).loc main_arg1) : S160000x256.Idx → EReal) (ix2 p k) := by
  obtain ⟨e0, e1, -⟩ := block_index t
  unfold iblk
  rw [View.read_apply]
  show V m c main_arg1 _ = _
  rw [V_main_arg1]
  refine congrArg _ (funext fun a => Fin.ext ?_)
  match a with
  | ⟨0, _⟩ => show win0_0.index t (0 : Fin 2) * 2000 + 1 * r.val = p.val; rw [e0, hp]; omega
  | ⟨1, _⟩ => show win0_0.index t (1 : Fin 2) * 256 + 1 * k.val = k.val; rw [e1]; omega

/-- The receivers' tile at step t is rows 2000·t … of the receivers' rows. -/
theorem recv_tile (c : Dev nD) (t : Fin cfg0.N) (r : Fin 2000) (k : Fin 256) (p : Fin 160000)
    (hp : p.val = 2000 * t.val + r.val) :
    (iblk m c 1 t : Vec Ideal S2000x256 .f32) (ix2 r k)
      = takeRows (F := Ideal) (m ((c : Thread nD τ).loc main_arg0)) (m ((c : Thread nD τ).loc main_arg2)) (ix2 p k) := by
  obtain ⟨-, -, e0, e1, -⟩ := block_index t
  unfold iblk
  rw [View.read_apply]
  show V m c main_v0 _ = _
  refine (congrFun (V_recv m c) _).trans (congrArg _ (funext fun a => Fin.ext ?_))
  match a with
  | ⟨0, _⟩ => show win0_1.index t (0 : Fin 2) * 2000 + 1 * r.val = p.val; rw [e0, hp]; omega
  | ⟨1, _⟩ => show win0_1.index t (1 : Fin 2) * 256 + 1 * k.val = k.val; rw [e1]; omega

/-- The senders' tile at step t is rows 2000·t … of the senders' rows. -/
theorem send_tile (c : Dev nD) (t : Fin cfg0.N) (r : Fin 2000) (k : Fin 256) (p : Fin 160000)
    (hp : p.val = 2000 * t.val + r.val) :
    (iblk m c 2 t : Vec Ideal S2000x256 .f32) (ix2 r k)
      = takeRows (F := Ideal) (m ((c : Thread nD τ).loc main_arg0)) (m ((c : Thread nD τ).loc main_arg3)) (ix2 p k) := by
  obtain ⟨-, -, -, -, e0, e1, -⟩ := block_index t
  unfold iblk
  rw [View.read_apply]
  show V m c main_v1 _ = _
  refine (congrFun (V_send m c) _).trans (congrArg _ (funext fun a => Fin.ext ?_))
  match a with
  | ⟨0, _⟩ => show win0_2.index t (0 : Fin 2) * 2000 + 1 * r.val = p.val; rw [e0, hp]; omega
  | ⟨1, _⟩ => show win0_2.index t (1 : Fin 2) * 256 + 1 * k.val = k.val; rw [e1]; omega

/-- The first band as every step reads it: rows 0 … 255 of the weight matrix. -/
theorem band0_tile (c : Dev nD) (t : Fin cfg0.N) (k q : Fin 256) (j : Fin 768) (hj : j.val = k.val) :
    (iblk m c 3 t : Vec Ideal S256x256 .f32) (ix2 k q)
      = (m ((c : Thread nD τ).loc main_arg4) : S768x256.Idx → EReal) (ix2 j q) := by
  obtain ⟨-, -, -, -, -, -, e0, e1, -⟩ := block_index t
  unfold iblk
  rw [View.read_apply]
  show V m c main_v2 _ = _
  refine (congrFun (V_band0 m c) _).trans (extractStridedSlice_apply _ _ _ _ _ fun a => ?_)
  match a with
  | ⟨0, _⟩ => show j.val = 0 + (win0_3.index t (0 : Fin 2) * 256 + 1 * k.val); rw [e0, hj]; omega
  | ⟨1, _⟩ => show q.val = 0 + (win0_3.index t (1 : Fin 2) * 256 + 1 * q.val); rw [e1]; omega

/-- The second band: rows 256 … 511. -/
theorem band1_tile (c : Dev nD) (t : Fin cfg0.N) (k q : Fin 256) (j : Fin 768) (hj : j.val = 256 + k.val) :
    (iblk m c 4 t : Vec Ideal S256x256 .f32) (ix2 k q)
      = (m ((c : Thread nD τ).loc main_arg4) : S768x256.Idx → EReal) (ix2 j q) := by
  obtain ⟨-, -, -, -, -, -, -, -, e0, e1, -⟩ := block_index t
  unfold iblk
  rw [View.read_apply]
  show V m c main_v3 _ = _
  refine (congrFun (V_band1 m c) _).trans (extractStridedSlice_apply _ _ _ _ _ fun a => ?_)
  match a with
  | ⟨0, _⟩ => show j.val = 256 + (win0_4.index t (0 : Fin 2) * 256 + 1 * k.val); rw [e0, hj]; omega
  | ⟨1, _⟩ => show q.val = 0 + (win0_4.index t (1 : Fin 2) * 256 + 1 * q.val); rw [e1]; omega

/-- The third band: rows 512 … 767. -/
theorem band2_tile (c : Dev nD) (t : Fin cfg0.N) (k q : Fin 256) (j : Fin 768) (hj : j.val = 256 + 256 + k.val) :
    (iblk m c 5 t : Vec Ideal S256x256 .f32) (ix2 k q)
      = (m ((c : Thread nD τ).loc main_arg4) : S768x256.Idx → EReal) (ix2 j q) := by
  obtain ⟨-, -, -, -, -, -, -, -, -, -, e0, e1, -⟩ := block_index t
  unfold iblk
  rw [View.read_apply]
  show V m c main_v4 _ = _
  refine (congrFun (V_band2 m c) _).trans (extractStridedSlice_apply _ _ _ _ _ fun a => ?_)
  match a with
  | ⟨0, _⟩ => show j.val = 512 + (win0_5.index t (0 : Fin 2) * 256 + 1 * k.val); rw [e0, hj]; omega
  | ⟨1, _⟩ => show q.val = 0 + (win0_5.index t (1 : Fin 2) * 256 + 1 * q.val); rw [e1]; omega

/-- Entry (r, q) of the tile step t stores is entry (2000·t + r, q) of `outArr`. -/
theorem stored_tile (c : Dev nD) (t : Fin cfg0.N) (r : Fin 2000) (q : Fin 256) (p : Fin 160000)
    (hp : p.val = 2000 * t.val + r.val) :
    k0_pay1 (F := Ideal) (iblk m c 0 t) (iblk m c 1 t) (iblk m c 2 t) (iblk m c 3 t) (iblk m c 4 t) (iblk m c 5 t) (ix2 r q)
      = outArr m c (ix2 p q) := by
  refine (stored_entry _ _ _ _ _ _ r q).trans ?_
  unfold outArr
  rw [ConcatProduct.threeProductsArr_ix2]
  unfold ConcatProduct.threeProducts
  refine congrArg₂ (· + ·) (congrArg₂ (· + ·) ?_ ?_) ?_
  · exact Finset.sum_congr rfl fun k _ => congrArg₂ (· * ·) (edge_tile m c t r k p hp) (band0_tile m c t k q _ rfl)
  · exact Finset.sum_congr rfl fun k _ => congrArg₂ (· * ·) (recv_tile m c t r k p hp) (band1_tile m c t k q _ rfl)
  · exact Finset.sum_congr rfl fun k _ => congrArg₂ (· * ·) (send_tile m c t r k p hp) (band2_tile m c t k q _ rfl)

/-- The same at any index j of the tile and any index i of the array that sits 2000·t rows below it. -/
theorem stored_tile_at (c : Dev nD) (t : Fin cfg0.N) (j : S2000x256.Idx) (i : S160000x256.Idx)
    (h0 : (i 0).val = 2000 * t.val + (j 0).val) (h1 : (i 1).val = (j 1).val) :
    k0_pay1 (F := Ideal) (iblk m c 0 t) (iblk m c 1 t) (iblk m c 2 t) (iblk m c 3 t) (iblk m c 4 t) (iblk m c 5 t) j
      = outArr m c i := by
  obtain ⟨r, q, rfl⟩ : ∃ (r : Fin 2000) (q : Fin 256), j = ix2 r q := ⟨j 0, j 1, eq_ix2 j⟩
  obtain ⟨p, q', rfl⟩ : ∃ (p : Fin 160000) (q' : Fin 256), i = ix2 p q' := ⟨i 0, i 1, eq_ix2 i⟩
  obtain rfl : q' = q := Fin.ext h1
  exact stored_tile m c t r q' p h0

/-- What step t writes back is block t of `outArr`. -/
theorem flushed_eq (c : Dev nD) (t : Fin cfg0.N) :
    (dats m 0 c).flushed 6 t = ((cfg0.win 6).blk t).view.read (Elt Ideal) (outArr m c) := by
  rw [Cert.KernelIdeal.Value.flushed6]
  unfold out0_6
  rw [View.canon_unit_zero zero_offsets]
  simp only [View.ld_unit_zero (S := S2000x256) zero_offsets, View.ld_unit_zero (S := S256x256) zero_offsets]
  obtain ⟨-, -, -, -, -, -, -, -, -, -, -, -, e0, e1⟩ := block_index t
  funext j
  rw [View.read_apply]
  show k0_pay1 (F := Ideal) (iblk m c 0 t) (iblk m c 1 t) (iblk m c 2 t) (iblk m c 3 t) (iblk m c 4 t) (iblk m c 5 t) j
      = outArr m c (((cfg0.win 6).blk t).view.emb j)
  refine stored_tile_at m c t j _ ?_ ?_
  · show win0_6.index t (0 : Fin 2) * 2000 + 1 * (j 0).val = 2000 * t.val + (j 0).val
    rw [e0]; omega
  · show win0_6.index t (1 : Fin 2) * 256 + 1 * (j 1).val = (j 1).val
    rw [e1]; omega

/-- An index is in step t's block exactly when each coordinate is in the block's range on its axis. -/
theorem mem_block (t : Fin cfg0.N) (i : S160000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v5).slice (win0_6.rect t)).set ↔ _
  rw [View.set_slice_whole, Rect.mem_set_unit]
  exact Iff.rfl

/-- Every index of the result lies in the block of the step its row belongs to. -/
theorem covered (i : S160000x256.Idx) :
    ∃ t : Fin cfg0.N, (cfg0.win 6).flush t = true ∧ i ∈ ((cfg0.win 6).blk t).view.set := by
  have hN : cfg0.N = 80 := N_0
  have hi0 : (i 0).val < 160000 := (i 0).isLt
  have hi1 : (i 1).val < 256 := (i 1).isLt
  refine ⟨⟨(i 0).val / 2000, by rw [hN]; omega⟩, flush0_6 _, ?_⟩
  rw [mem_block]
  obtain ⟨-, -, -, -, -, -, -, -, -, -, -, -, e0, e1⟩ := block_index ⟨(i 0).val / 2000, by rw [hN]; omega⟩
  intro a
  match a with
  | ⟨0, _⟩ =>
    show win0_6.index _ (0 : Fin 2) * 2000 ≤ (i 0).val ∧ (i 0).val < win0_6.index _ (0 : Fin 2) * 2000 + 2000
    rw [e0]; show (i 0).val / 2000 * 2000 ≤ (i 0).val ∧ (i 0).val < (i 0).val / 2000 * 2000 + 2000; omega
  | ⟨1, _⟩ =>
    show win0_6.index _ (1 : Fin 2) * 256 ≤ (i 1).val ∧ (i 1).val < win0_6.index _ (1 : Fin 2) * 256 + 256
    rw [e1]; omega

/-- The result array after the run is `outArr`. -/
theorem final (c : Dev nD) : (dats m 0 c).arrAt 6 cfg0.N = outArr m c :=
  (dats m 0 c).arrAt_eq_of_cover 6 (outArr m c) (fun t _ => flushed_eq m c t) covered

/-- The kernel's run, read: the result at `outArr`, the arguments unchanged. -/
theorem run : θ_run defs (onTc (τ := τ) (main (F := Ideal))) ⟨m, fun _ => 0, ρ⟩ fun r => ∀ c : Dev nD,
      r.2.mem ((c : Thread nD τ).loc main_v5) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Bridge

end
-- ==== Proof.RefRun.lean ====
/-
  The reference program as one straight line of host operations, and its run.

  The reference picks the receivers' rows and the senders' rows of the node table (each pick is the same
  twenty-three steps, written in the program as a call of one function; the steps are listed here at each call,
  over the buffers that call names), lays the edge features and the two picks side by side, and multiplies the
  768-column result by the weight matrix. Every weakly fair execution of that line terminates, and each buffer
  ends at the fold of the operations' results over what the buffers held at launch.
-/
import proofs.«100382_j29119878266986_1_alg».proof.Proof.Gen.ReferenceIdeal
import Idealize.ShloMosaic.Lib.StableHlo.Run

noncomputable section

namespace Cert.ReferenceIdeal.Bridge

open Cert.ReferenceIdeal Cert.ReferenceIdeal.Gen Idealize.ShloMosaic Idealize.ShloMosaic.TcCoe Idealize.SL.Sem Idealize.ShloMosaic.StableHlo

variable {F : FTy → Type} [FloatOps F]

/-- The reference's forty-eight operations in order: the receivers' pick, the senders' pick, the concatenation, the product. -/
abbrev ops : List (HloOp τ sig (Elt F)) :=
  [
    TRef.nullary main_call0.c (constantI S_ 32 0#32),
    TRef.unary main_call0.c main_call0.v0 (broadcastInDim S160000 ![] bcast_S_S160000),
    TRef.binary (.of main_arg2) main_call0.v0 main_call0.v1 (cmpi .slt),
    TRef.nullary main_call0.c_0 (constantI S_ 32 10000#32),
    TRef.unary main_call0.c_0 main_call0.v2 (broadcastInDim S160000 ![] bcast_S_S160000),
    TRef.binary (.of main_arg2) main_call0.v2 main_call0.v3 addi,
    TRef.ternary main_call0.v1 main_call0.v3 (.of main_arg2) main_call0.call0.v0 select,
    TRef.unary main_call0.call0.v0 main_call0.v5 (broadcastInDim S160000x1 ![0] bcast_S160000_S160000x1_0),
    TRef.nullary main_call0.c_1 (constantI S1 32 9999#32),
    TRef.nullary main_call0.c_2 (constantI S_ 32 0#32),
    TRef.unary main_call0.c_2 main_call0.v6 (broadcastInDim S160000x1 ![] bcast_S_S160000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S160000x1 ![0, 1] bcast_S1x1_S160000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S160000x1_S160000_d1 h_S_),
    TRef.binary (.of main_arg0) main_call0.v5 main_call0.v13 (fun x i => Host.gather gather_S10000x256_S160000x1_S160000x256_1_0_n_n_0_1_1256 x i),
    TRef.unary main_call0.v12 main_call0.v14 (broadcastInDim S160000x256 ![0] bcast_S160000_S160000x256_0),
    TRef.nullary main_call0.cst (constant S_ .f32 0x7FC00000#32),
    TRef.unary main_call0.cst main_call0.v15 (broadcastInDim S160000x256 ![] bcast_S_S160000x256),
    TRef.ternary main_call0.v14 main_call0.v13 main_call0.v15 main_call0.v16 select,
    TRef.nullary main_call1.c (constantI S_ 32 0#32),
    TRef.unary main_call1.c main_call1.v0 (broadcastInDim S160000 ![] bcast_S_S160000),
    TRef.binary (.of main_arg3) main_call1.v0 main_call1.v1 (cmpi .slt),
    TRef.nullary main_call1.c_0 (constantI S_ 32 10000#32),
    TRef.unary main_call1.c_0 main_call1.v2 (broadcastInDim S160000 ![] bcast_S_S160000),
    TRef.binary (.of main_arg3) main_call1.v2 main_call1.v3 addi,
    TRef.ternary main_call1.v1 main_call1.v3 (.of main_arg3) main_call1.call0.v0 select,
    TRef.unary main_call1.call0.v0 main_call1.v5 (broadcastInDim S160000x1 ![0] bcast_S160000_S160000x1_0),
    TRef.nullary main_call1.c_1 (constantI S1 32 9999#32),
    TRef.nullary main_call1.c_2 (constantI S_ 32 0#32),
    TRef.unary main_call1.c_2 main_call1.v6 (broadcastInDim S160000x1 ![] bcast_S_S160000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S160000x1 ![0, 1] bcast_S1x1_S160000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S160000x1_S160000_d1 h_S_),
    TRef.binary (.of main_arg0) main_call1.v5 main_call1.v13 (fun x i => Host.gather gather_S10000x256_S160000x1_S160000x256_1_0_n_n_0_1_1256 x i),
    TRef.unary main_call1.v12 main_call1.v14 (broadcastInDim S160000x256 ![0] bcast_S160000_S160000x256_0),
    TRef.nullary main_call1.cst (constant S_ .f32 0x7FC00000#32),
    TRef.unary main_call1.cst main_call1.v15 (broadcastInDim S160000x256 ![] bcast_S_S160000x256),
    TRef.ternary main_call1.v14 main_call1.v13 main_call1.v15 main_call1.v16 select,
    nary ![main_arg1, main_v0, main_v1] main_v2 (fun u => concatenate S160000x768 1 [⟨S160000x256, u 0⟩, ⟨S160000x256, u 1⟩, ⟨S160000x256, u 2⟩] concatenates_S160000x256_S160000x256_S160000x256_S160000x768_d1),
    binary main_v2 main_arg4 main_v3 ((fun l r => Host.dotGeneral dot_S160000x768_S768x256_S160000x256_1_0_0_1_n_n none l r) : (⟨S160000x768, .f32⟩ : BufTy).Contents (Elt F) → (⟨S768x256, .f32⟩ : BufTy).Contents (Elt F) → (⟨S160000x256, .f32⟩ : BufTy).Contents (Elt F)) ]

-- forty-eight binds re-associated: the rewriting under the chain recurses once per statement
set_option maxRecDepth 2048 in
/-- The printed program is that line: the called functions unfolded at their calls, and sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nary_bufs_sub .., binary_bufs_sub ..⟩

/-- Every weakly fair execution of the reference terminates, and every buffer ends at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Bridge

end
-- ==== Proof.RefProduct.lean ====
/-
  The reference's last two steps as one function: the three feature matrices laid side by side (160000 × 768),
  multiplied by the 768 × 256 weight matrix.
-/
import proofs.«100382_j29119878266986_1_alg».proof.Proof.Gen.ReferenceIdeal

noncomputable section

namespace Cert.ReferenceIdeal.Bridge

open Cert.ReferenceIdeal Cert.ReferenceIdeal.Gen Idealize.ShloMosaic Idealize.SL.Sem

variable {F : FTy → Type} [FloatOps F]

/-- The three feature matrices side by side, times the weight matrix. -/
def product (edges recv send : (⟨S160000x256, .f32⟩ : BufTy).Contents (Elt F)) (W : (⟨S768x256, .f32⟩ : BufTy).Contents (Elt F)) :
    (⟨S160000x256, .f32⟩ : BufTy).Contents (Elt F) :=
  Host.dotGeneral dot_S160000x768_S768x256_S160000x256_1_0_0_1_n_n none
    (concatenate S160000x768 1 [⟨S160000x256, edges⟩, ⟨S160000x256, recv⟩, ⟨S160000x256, send⟩]
      concatenates_S160000x256_S160000x256_S160000x256_S160000x768_d1) W

end Cert.ReferenceIdeal.Bridge

end
-- ==== Proof.RefValue.lean ====
/-
  What the reference's line of operations leaves in its result buffer.

  The line is the two row picks (forty-six operations) followed by the concatenation and the product. Folding the
  picks over any contents V of the buffers leaves, in the two picks' result buffers, `takeRows` of the node table
  and the receivers (senders) — the same function of the same arguments that the kernel's program computes before
  its region — and leaves the edge features and the weight matrix as they were; the last two operations then leave
  the product of [edges | recv | send] with the weight matrix. The argument buffers are written by no operation.
-/
import proofs.«100382_j29119878266986_1_alg».proof.Proof.RefRun
import proofs.«100382_j29119878266986_1_alg».proof.Proof.RefProduct
import proofs.«100382_j29119878266986_1_alg».proof.Proof.TakeRows
import proofs.«100382_j29119878266986_1_alg».proof.Proof.LibBufCasts
import Idealize.ShloMosaic.Lib.Pipeline.Frame

noncomputable section

namespace Cert.ReferenceIdeal.Bridge

open Cert.ReferenceIdeal Cert.ReferenceIdeal.Gen Idealize.ShloMosaic Idealize.ShloMosaic.TcCoe Idealize.SL.Sem Idealize.ShloMosaic.StableHlo
open Cert.Lib

variable {F : FTy → Type} [FloatOps F] [Cert.KernelIdeal.Facts]

/-- The two row picks: the first forty-six operations of the line. -/
abbrev pickOps : List (HloOp τ sig (Elt F)) :=
  [
    TRef.nullary main_call0.c (constantI S_ 32 0#32),
    TRef.unary main_call0.c main_call0.v0 (broadcastInDim S160000 ![] bcast_S_S160000),
    TRef.binary (.of main_arg2) main_call0.v0 main_call0.v1 (cmpi .slt),
    TRef.nullary main_call0.c_0 (constantI S_ 32 10000#32),
    TRef.unary main_call0.c_0 main_call0.v2 (broadcastInDim S160000 ![] bcast_S_S160000),
    TRef.binary (.of main_arg2) main_call0.v2 main_call0.v3 addi,
    TRef.ternary main_call0.v1 main_call0.v3 (.of main_arg2) main_call0.call0.v0 select,
    TRef.unary main_call0.call0.v0 main_call0.v5 (broadcastInDim S160000x1 ![0] bcast_S160000_S160000x1_0),
    TRef.nullary main_call0.c_1 (constantI S1 32 9999#32),
    TRef.nullary main_call0.c_2 (constantI S_ 32 0#32),
    TRef.unary main_call0.c_2 main_call0.v6 (broadcastInDim S160000x1 ![] bcast_S_S160000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S160000x1 ![0, 1] bcast_S1x1_S160000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S160000x1_S160000_d1 h_S_),
    TRef.binary (.of main_arg0) main_call0.v5 main_call0.v13 (fun x i => Host.gather gather_S10000x256_S160000x1_S160000x256_1_0_n_n_0_1_1256 x i),
    TRef.unary main_call0.v12 main_call0.v14 (broadcastInDim S160000x256 ![0] bcast_S160000_S160000x256_0),
    TRef.nullary main_call0.cst (constant S_ .f32 0x7FC00000#32),
    TRef.unary main_call0.cst main_call0.v15 (broadcastInDim S160000x256 ![] bcast_S_S160000x256),
    TRef.ternary main_call0.v14 main_call0.v13 main_call0.v15 main_call0.v16 select,
    TRef.nullary main_call1.c (constantI S_ 32 0#32),
    TRef.unary main_call1.c main_call1.v0 (broadcastInDim S160000 ![] bcast_S_S160000),
    TRef.binary (.of main_arg3) main_call1.v0 main_call1.v1 (cmpi .slt),
    TRef.nullary main_call1.c_0 (constantI S_ 32 10000#32),
    TRef.unary main_call1.c_0 main_call1.v2 (broadcastInDim S160000 ![] bcast_S_S160000),
    TRef.binary (.of main_arg3) main_call1.v2 main_call1.v3 addi,
    TRef.ternary main_call1.v1 main_call1.v3 (.of main_arg3) main_call1.call0.v0 select,
    TRef.unary main_call1.call0.v0 main_call1.v5 (broadcastInDim S160000x1 ![0] bcast_S160000_S160000x1_0),
    TRef.nullary main_call1.c_1 (constantI S1 32 9999#32),
    TRef.nullary main_call1.c_2 (constantI S_ 32 0#32),
    TRef.unary main_call1.c_2 main_call1.v6 (broadcastInDim S160000x1 ![] bcast_S_S160000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S160000x1 ![0, 1] bcast_S1x1_S160000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S160000x1_S160000_d1 h_S_),
    TRef.binary (.of main_arg0) main_call1.v5 main_call1.v13 (fun x i => Host.gather gather_S10000x256_S160000x1_S160000x256_1_0_n_n_0_1_1256 x i),
    TRef.unary main_call1.v12 main_call1.v14 (broadcastInDim S160000x256 ![0] bcast_S160000_S160000x256_0),
    TRef.nullary main_call1.cst (constant S_ .f32 0x7FC00000#32),
    TRef.unary main_call1.cst main_call1.v15 (broadcastInDim S160000x256 ![] bcast_S_S160000x256),
    TRef.ternary main_call1.v14 main_call1.v13 main_call1.v15 main_call1.v16 select ]

/-- The concatenation and the product: the last two. -/
abbrev lastOps : List (HloOp τ sig (Elt F)) :=
  [
    nary ![main_arg1, main_v0, main_v1] main_v2 (fun u => concatenate S160000x768 1 [⟨S160000x256, u 0⟩, ⟨S160000x256, u 1⟩, ⟨S160000x256, u 2⟩] concatenates_S160000x256_S160000x256_S160000x256_S160000x768_d1),
    binary main_v2 main_arg4 main_v3 ((fun l r => Host.dotGeneral dot_S160000x768_S768x256_S160000x256_1_0_0_1_n_n none l r) : (⟨S160000x768, .f32⟩ : BufTy).Contents (Elt F) → (⟨S768x256, .f32⟩ : BufTy).Contents (Elt F) → (⟨S160000x256, .f32⟩ : BufTy).Contents (Elt F)) ]

theorem ops_split : (ops : List (HloOp τ sig (Elt F))) = pickOps ++ lastOps := rfl

-- the gather and the reduction are kept folded: the comparison never needs to look inside them
attribute [local irreducible] Host.reduce Host.gather in
/-- After the picks, the first pick's result buffer holds the receivers' rows. -/
theorem pick_recv (V : Valuation τ sig (Elt F)) :
    (after pickOps V (main_v0 : DevRef τ sig) : S160000x256.Idx → Elt F .f32)
      = Cert.KernelIdeal.Bridge.takeRows (V (main_arg0 : DevRef τ sig)) (V (main_arg2 : DevRef τ sig)) := by
  after_results_simp
  simp only [BufCasts.ofBuf_toBuf]
  first | rfl | fail "receivers: the composed term is not takeRows by unfolding"

attribute [local irreducible] Host.reduce Host.gather in
/-- And the second pick's the senders' rows. -/
theorem pick_send (V : Valuation τ sig (Elt F)) :
    (after pickOps V (main_v1 : DevRef τ sig) : S160000x256.Idx → Elt F .f32)
      = Cert.KernelIdeal.Bridge.takeRows (V (main_arg0 : DevRef τ sig)) (V (main_arg3 : DevRef τ sig)) := by
  after_results_simp
  simp only [BufCasts.ofBuf_toBuf]
  first | rfl | fail "senders: the composed term is not takeRows by unfolding"

theorem pick_arg1 (V : Valuation τ sig (Elt F)) : after pickOps V (main_arg1 : DevRef τ sig) = V (main_arg1 : DevRef τ sig) := by
  after_results_simp
theorem pick_arg4 (V : Valuation τ sig (Elt F)) : after pickOps V (main_arg4 : DevRef τ sig) = V (main_arg4 : DevRef τ sig) := by
  after_results_simp

/-- The last two operations leave the product of the three matrices side by side with the weight matrix. -/
theorem last_eq (W : Valuation τ sig (Elt F)) :
    (after lastOps W (main_v3 : DevRef τ sig) : S160000x256.Idx → Elt F .f32)
      = product (W (main_arg1 : DevRef τ sig)) (W (main_v0 : DevRef τ sig)) (W (main_v1 : DevRef τ sig)) (W (main_arg4 : DevRef τ sig)) := by
  after_results
  first | rfl | fail "the last two operations: not the product by unfolding"

/-- The result buffer after the whole line. -/
theorem out_eq (V : Valuation τ sig (Elt F)) :
    (after ops V (main_v3 : DevRef τ sig) : S160000x256.Idx → Elt F .f32)
      = product (V (main_arg1 : DevRef τ sig))
          (Cert.KernelIdeal.Bridge.takeRows (V (main_arg0 : DevRef τ sig)) (V (main_arg2 : DevRef τ sig)))
          (Cert.KernelIdeal.Bridge.takeRows (V (main_arg0 : DevRef τ sig)) (V (main_arg3 : DevRef τ sig)))
          (V (main_arg4 : DevRef τ sig)) := by
  rw [ops_split, StableHlo.after_append]
  refine (last_eq _).trans ?_
  rw [pick_recv, pick_send, pick_arg1, pick_arg4]

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- The reference's run, read: the result at the product, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
          = product (m ((c.tc : Thread nD τ).loc main_arg1))
              (Cert.KernelIdeal.Bridge.takeRows (m ((c.tc : Thread nD τ).loc main_arg0)) (m ((c.tc : Thread nD τ).loc main_arg2)))
              (Cert.KernelIdeal.Bridge.takeRows (m ((c.tc : Thread nD τ).loc main_arg0)) (m ((c.tc : Thread nD τ).loc main_arg3)))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v3).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.Bridge

end
-- ==== Proof.LibJoin3Cols.lean ====
/-
  Three matrices of one shape laid side by side, read at an entry. If x, y and z are n × a, their concatenation along
  the column axis is n × c (the shape record's side condition makes c = 3a); its entry (p, k) is x (p, q) when k = q,
  y (p, q) when k = a + q and z (p, q) when k = 2a + q, for a column q of the pieces.
-/
import Idealize.ShloMosaic.Lib.ValueIdx
import Idealize.ShloMosaic.Lib.Pipeline.Value

noncomputable section

namespace Cert.Lib.Join3Cols

open Idealize.ShloMosaic Idealize.ShloMosaic.ValueIdx

variable {α : Type} {n a c : Nat}

/-- A column inside the first matrix reads the first matrix there. -/
theorem concat3_first (x y z : (⟨2, ![n, a]⟩ : Shape).Idx → α)
    (h : Shape.Concatenates [(⟨2, ![n, a]⟩ : Shape), ⟨2, ![n, a]⟩, ⟨2, ![n, a]⟩] ⟨2, ![n, c]⟩ (1 : Fin 2))
    (p : Fin n) (k : Fin c) (q : Fin a) (hk : k.val = q.val) :
    concatenate (⟨2, ![n, c]⟩ : Shape) (1 : Fin 2) [⟨⟨2, ![n, a]⟩, x⟩, ⟨⟨2, ![n, a]⟩, y⟩, ⟨⟨2, ![n, a]⟩, z⟩] h (ix2 p k)
      = x (ix2 p q) :=
  concatenate_apply_piece (t := (⟨2, ![n, c]⟩ : Shape)) (1 : Fin 2) [⟨⟨2, ![n, a]⟩, x⟩, ⟨⟨2, ![n, a]⟩, y⟩, ⟨⟨2, ![n, a]⟩, z⟩] h (ix2 p k) 0 (by show 0 < 3; omega) ⟨2, ![n, a]⟩ x rfl rfl 0 rfl (ix2 p q)
    (fun d hd => by
      match d with
      | ⟨0, _⟩ => rfl
      | ⟨1, _⟩ => exact absurd rfl hd)
    (by show 0 + q.val = k.val; omega)

/-- A column inside the second matrix reads the second matrix, one width less. -/
theorem concat3_second (x y z : (⟨2, ![n, a]⟩ : Shape).Idx → α)
    (h : Shape.Concatenates [(⟨2, ![n, a]⟩ : Shape), ⟨2, ![n, a]⟩, ⟨2, ![n, a]⟩] ⟨2, ![n, c]⟩ (1 : Fin 2))
    (p : Fin n) (k : Fin c) (q : Fin a) (hk : k.val = a + q.val) :
    concatenate (⟨2, ![n, c]⟩ : Shape) (1 : Fin 2) [⟨⟨2, ![n, a]⟩, x⟩, ⟨⟨2, ![n, a]⟩, y⟩, ⟨⟨2, ![n, a]⟩, z⟩] h (ix2 p k)
      = y (ix2 p q) :=
  concatenate_apply_piece (t := (⟨2, ![n, c]⟩ : Shape)) (1 : Fin 2) [⟨⟨2, ![n, a]⟩, x⟩, ⟨⟨2, ![n, a]⟩, y⟩, ⟨⟨2, ![n, a]⟩, z⟩] h (ix2 p k) 1 (by show 1 < 3; omega) ⟨2, ![n, a]⟩ y rfl rfl a (by simp) (ix2 p q)
    (fun d hd => by
      match d with
      | ⟨0, _⟩ => rfl
      | ⟨1, _⟩ => exact absurd rfl hd)
    (by show a + q.val = k.val; omega)

/-- A column inside the third matrix reads the third matrix, two widths less. -/
theorem concat3_third (x y z : (⟨2, ![n, a]⟩ : Shape).Idx → α)
    (h : Shape.Concatenates [(⟨2, ![n, a]⟩ : Shape), ⟨2, ![n, a]⟩, ⟨2, ![n, a]⟩] ⟨2, ![n, c]⟩ (1 : Fin 2))
    (p : Fin n) (k : Fin c) (q : Fin a) (hk : k.val = a + a + q.val) :
    concatenate (⟨2, ![n, c]⟩ : Shape) (1 : Fin 2) [⟨⟨2, ![n, a]⟩, x⟩, ⟨⟨2, ![n, a]⟩, y⟩, ⟨⟨2, ![n, a]⟩, z⟩] h (ix2 p k)
      = z (ix2 p q) :=
  concatenate_apply_piece (t := (⟨2, ![n, c]⟩ : Shape)) (1 : Fin 2) [⟨⟨2, ![n, a]⟩, x⟩, ⟨⟨2, ![n, a]⟩, y⟩, ⟨⟨2, ![n, a]⟩, z⟩] h (ix2 p k) 2 (by show 2 < 3; omega) ⟨2, ![n, a]⟩ z rfl rfl (a + a) (by simp) (ix2 p q)
    (fun d hd => by
      match d with
      | ⟨0, _⟩ => rfl
      | ⟨1, _⟩ => exact absurd rfl hd)
    (by show a + a + q.val = k.val; omega)

end Cert.Lib.Join3Cols

end
-- ==== Proof.RefEntry.lean ====
/-
  The reference's product, read at an entry, is the kernel's three band products added.

  Entry (p, q) of [edges | recv | send] · W is the sum over the 768 columns k of the concatenation at (p, k) times
  W (k, q). The concatenation reads edges on columns 0 … 255, recv on 256 … 511 and send on 512 … 767, so cutting
  the sum into those three runs gives
      Σₖ edges (p, k) · W (k, q)  +  Σₖ recv (p, k) · W (256 + k, q)  +  Σₖ send (p, k) · W (512 + k, q).
  Only the grouping of a finite sum is used, which holds on the extended reals whatever the entries are.
-/
import proofs.«100382_j29119878266986_1_alg».proof.Proof.RefProduct
import proofs.«100382_j29119878266986_1_alg».proof.Proof.LibDotEntry
import proofs.«100382_j29119878266986_1_alg».proof.Proof.LibMatDims
import proofs.«100382_j29119878266986_1_alg».proof.Proof.LibJoin3Cols
import proofs.«100382_j29119878266986_1_alg».proof.Proof.LibConcatProduct
import Idealize.ShloMosaic.Lib.ValueIdx

noncomputable section

namespace Cert.ReferenceIdeal.Bridge

open Cert.ReferenceIdeal Cert.ReferenceIdeal.Gen Idealize.ShloMosaic Idealize.SL.Sem Idealize.ShloMosaic.ValueIdx
open Cert.Lib

/-- Entry (p, q) of the reference's product. -/
theorem product_entry (edges recv send : FVec Ideal S160000x256 .f32) (W : FVec Ideal S768x256 .f32)
    (p : Fin 160000) (q : Fin 256) :
    product (F := Ideal) edges recv send W (ix2 p q)
      = ConcatProduct.threeProducts (M := EReal) (n := 160000) (a := 256) (b := 256) (c := 768) rfl edges recv send W p q := by
  unfold product
  refine (DotEntry.dotGeneral_ix2 dot_S160000x768_S768x256_S160000x256_1_0_0_1_n_n
    (MatDims.contr_rank _ rfl) (MatDims.contr_size _ rfl)
    (MatDims.lhs_row _ rfl rfl) (MatDims.lhs_col _ rfl) (MatDims.rhs_row _ rfl rfl) (MatDims.rhs_col _ rfl rfl rfl rfl)
    _ W p q).trans ?_
  exact ConcatProduct.sum_eq_threeProducts rfl _ edges recv send W p q
    (fun j k h => Join3Cols.concat3_first edges recv send _ p j k h)
    (fun j k h => Join3Cols.concat3_second edges recv send _ p j k h)
    (fun j k h => Join3Cols.concat3_third edges recv send _ p j k h)

/-- The reference's product as a whole array. -/
theorem product_eq (edges recv send : FVec Ideal S160000x256 .f32) (W : FVec Ideal S768x256 .f32) :
    product (F := Ideal) edges recv send W
      = ConcatProduct.threeProductsArr (M := EReal) (n := 160000) (a := 256) (b := 256) (c := 768) rfl edges recv send W := by
  funext i
  obtain ⟨p, q, rfl⟩ : ∃ (p : Fin 160000) (q : Fin 256), i = ix2 p q := ⟨i 0, i 1, eq_ix2 i⟩
  exact product_entry edges recv send W p q

end Cert.ReferenceIdeal.Bridge

end
-- ==== Proof.lean ====
/-
  The kernel's edge projection equals the reference's, over the extended reals.

  Both programs first pick, with the same steps, the receivers' and the senders' rows of the node table. The
  reference then lays edges, recv and send side by side into a 160000 × 768 matrix C and returns C · W. The kernel
  cuts W into its three bands of 256 rows and, tile of 2000 rows by tile, returns edges · W₀ + recv · W₁ + send · W₂
  (rounding the factors to bf16 first, which at exact arithmetic changes nothing). Entry (p, q) of C · W is a sum
  over 768 columns; grouped into the three runs of 256 columns it is the kernel's three sums added. Grouping a finite
  sum is valid on the extended reals for any entries, so the precondition (finite inputs) is never opened.

  The modules: TakeRows (the row pick as one function), BodyEntry (one grid step at an entry), KernelHost (what the
  kernel's program has computed when its region starts), KernelArray (from the 80 tiles to the whole result),
  RefRun / RefValue (the reference's run and its result), RefProduct / RefEntry (the reference's product at an
  entry, and the regrouping of its sum), over the lemma files Lib*.
-/
import proofs.«100382_j29119878266986_1_alg».proof.Defs
import proofs.«100382_j29119878266986_1_alg».proof.Proof.Gen.Kernel
import proofs.«100382_j29119878266986_1_alg».proof.Proof.Gen.Kernel.Frame
import proofs.«100382_j29119878266986_1_alg».proof.Proof.Gen.KernelIdeal
import proofs.«100382_j29119878266986_1_alg».proof.Proof.Gen.KernelIdeal.Frame
import proofs.«100382_j29119878266986_1_alg».proof.Proof.Gen.KernelIdeal.Value
import proofs.«100382_j29119878266986_1_alg».proof.Proof.Gen.ReferenceIdeal
import proofs.«100382_j29119878266986_1_alg».proof.Proof.Gen.Pre_finite_inputs
import proofs.«100382_j29119878266986_1_alg».proof.Proof.KernelArray
import proofs.«100382_j29119878266986_1_alg».proof.Proof.RefValue
import proofs.«100382_j29119878266986_1_alg».proof.Proof.RefEntry
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Bridge.run (F := Ideal) m ρ)

/-- From memories that agree on the arguments both programs end with one result: the kernel's array is the three band
    products added (`outArr`), the reference's is the product of the concatenation, and the two are one array
    (`product_eq`). -/
theorem algebraic : Cert.algebraic_KernelIdeal_ReferenceIdeal := by
  intro m ρ m' ρ' _ hagree
  refine ⟨fun c => Cert.KernelIdeal.Bridge.outArr m c, Cert.KernelIdeal.Bridge.run m ρ, ?_⟩
  refine (θ_run Cert.ReferenceIdeal.defs _ _).mono (fun _ h c => ⟨(h c).1.trans ?_, (h c).2⟩)
    (Cert.ReferenceIdeal.Bridge.run (F := Ideal) m' ρ')
  obtain ⟨a0, a1, a2, a3, a4⟩ := hagree c
  rw [a0, a1, a2, a3, a4]
  exact Cert.ReferenceIdeal.Bridge.product_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
